-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S4096x1024 : Shape := ⟨2, ![4096, 1024]⟩
abbrev S4096 : Shape := ⟨1, ![4096]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S32768x1024 .f32) (main_arg1 : FVec F S4096x1024 .f32) (main_arg2 : FVec F S4096 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S32768x1024 : Shape := ⟨2, ![32768, 1024]⟩
abbrev S4096x1024 : Shape := ⟨2, ![4096, 1024]⟩
abbrev S4096 : Shape := ⟨1, ![4096]⟩
abbrev S1024x4x1024 : Shape := ⟨3, ![1024, 4, 1024]⟩
abbrev S_ : Shape := ⟨0, ![]⟩
abbrev S1024x1024 : Shape := ⟨2, ![1024, 1024]⟩
abbrev S1024x4 : Shape := ⟨2, ![1024, 4]⟩
abbrev S1024 : Shape := ⟨1, ![1024]⟩
abbrev S1x1024 : Shape := ⟨2, ![1, 1024]⟩
abbrev S32x1x1024 : Shape := ⟨3, ![32, 1, 1024]⟩
abbrev S1x1x1024 : Shape := ⟨3, ![1, 1, 1024]⟩
abbrev S1024x1 : Shape := ⟨2, ![1024, 1]⟩
abbrev S1024x256 : Shape := ⟨2, ![1024, 256]⟩
abbrev S1x256 : Shape := ⟨2, ![1, 256]⟩
abbrev S32768 : Shape := ⟨1, ![32768]⟩

abbrev nBuf : Space → Nat
  | .hbm => 20
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S4096x1024, .f32⟩
  | .hbm, ⟨2, _⟩ => ⟨S4096, .f32⟩
  | .hbm, ⟨3, _⟩ => ⟨S1024x4x1024, .f32⟩
  | .hbm, ⟨4, _⟩ => ⟨S_, .f32⟩
  | .hbm, ⟨5, _⟩ => ⟨S1024x1024, .f32⟩
  | .hbm, ⟨6, _⟩ => ⟨S_, .f32⟩
  | .hbm, ⟨7, _⟩ => ⟨S1024x1024, .f32⟩
  | .hbm, ⟨8, _⟩ => ⟨S1024x1024, .f32⟩
  | .hbm, ⟨9, _⟩ => ⟨S1024x4, .f32⟩
  | .hbm, ⟨10, _⟩ => ⟨S_, .f32⟩
  | .hbm, ⟨11, _⟩ => ⟨S1024, .f32⟩
  | .hbm, ⟨12, _⟩ => ⟨S_, .f32⟩
  | .hbm, ⟨13, _⟩ => ⟨S1024, .f32⟩
  | .hbm, ⟨14, _⟩ => ⟨S1024, .f32⟩
  | .hbm, ⟨15, _⟩ => ⟨S1024x1024, .f32⟩
  | .hbm, ⟨16, _⟩ => ⟨S1024x1024, .bf16⟩
  | .hbm, ⟨17, _⟩ => ⟨S1x1024, .f32⟩
  | .hbm, ⟨18, _⟩ => ⟨S32x1x1024, .f32⟩
  | .hbm, ⟨19, _⟩ => ⟨S32768, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1x1x1024, .f32⟩
  | .local _ .vmem, ⟨5, _⟩ => ⟨S1x1x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4096x1024_S1024x4x1024 : S4096x1024.ShapeCasts S1024x4x1024
  reducesTo_S1024x4x1024_S1024x1024_d1 : S1024x4x1024.ReducesTo [1] S1024x1024
  h_S_ : 0 < S_.numel
  bcast_S_S1024x1024 : S_.BroadcastsInDim S1024x1024 (![] : Fin 0 → Fin S1024x1024.rank)
  shapeCasts_S4096_S1024x4 : S4096.ShapeCasts S1024x4
  reducesTo_S1024x4_S1024_d1 : S1024x4.ReducesTo [1] S1024
  bcast_S_S1024 : S_.BroadcastsInDim S1024 (![] : Fin 0 → Fin S1024.rank)
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  inb_S1024x1024_S1024x256_0_0 : ∀ a, (![0, 0] : Fin 2 → Nat) a + S1024x256.size a ≤ S1024x1024.size a
  h_S1024x256 : 0 < S1024x256.numel
  shapeCasts_S1024x256_S1024x256 : S1024x256.ShapeCasts S1024x256
  inb_S1x1024_S1x256_0_0 : ∀ a, (![0, 0] : Fin 2 → Nat) a + S1x256.size a ≤ S1x1024.size a
  h_S1x256 : 0 < S1x256.numel
  shapeCasts_S1x256_S1x256 : S1x256.ShapeCasts S1x256
  broadcasts_S1x256_S1024x256 : S1x256.Broadcasts S1024x256
  reduces_S1024x256_S1024 : S1024x256.Reduces [1] S1024
  shapeCasts_S1024_S1024x1 : S1024.ShapeCasts S1024x1
  inb_S1024x1024_S1024x256_0_256 : ∀ a, (![0, 256] : Fin 2 → Nat) a + S1024x256.size a ≤ S1024x1024.size a
  inb_S1x1024_S1x256_0_256 : ∀ a, (![0, 256] : Fin 2 → Nat) a + S1x256.size a ≤ S1x1024.size a
  inb_S1024x1024_S1024x256_0_512 : ∀ a, (![0, 512] : Fin 2 → Nat) a + S1024x256.size a ≤ S1024x1024.size a
  inb_S1x1024_S1x256_0_512 : ∀ a, (![0, 512] : Fin 2 → Nat) a + S1x256.size a ≤ S1x1024.size a
  inb_S1024x1024_S1024x256_0_768 : ∀ a, (![0, 768] : Fin 2 → Nat) a + S1024x256.size a ≤ S1024x1024.size a
  inb_S1x1024_S1x256_0_768 : ∀ a, (![0, 768] : Fin 2 → Nat) a + S1x256.size a ≤ S1x1024.size a
  shapeCasts_S1024x1_S1x1x1024 : S1024x1.ShapeCasts S1x1x1024
  inb_S1x1x1024_S1x1x1024_0_0_0 : ∀ a, (![0, 0, 0] : Fin 3 → Nat) a + S1x1x1024.size a ≤ S1x1x1024.size a
  h_S1x1x1024 : 0 < S1x1x1024.numel
  shapeCasts_S32x1x1024_S32768 : S32x1x1024.ShapeCasts S32768
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S32x1x1024.size a
  hwx0_3 : ∀ i : grid0.Coords, EltTy.bits .f32 = 32 ∨ (Rect.block (s := S32x1x1024) S1x1x1024.size (cc0_transform_3 i) (hinb0_3 i)).WholeWords (EltTy.packing .f32)

variable [Facts₀]

def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x1x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S4096x1024 : Shape := ⟨2, ![4096, 1024]⟩
abbrev S4096 : Shape := ⟨1, ![4096]⟩
abbrev S1024x4x1024 : Shape := ⟨3, ![1024, 4, 1024]⟩
abbrev S_ : Shape := ⟨0, ![]⟩
abbrev S1024x1024 : Shape := ⟨2, ![1024, 1024]⟩
abbrev S1024x4 : Shape := ⟨2, ![1024, 4]⟩
abbrev S1024 : Shape := ⟨1, ![1024]⟩
abbrev S1x1024 : Shape := ⟨2, ![1, 1024]⟩
abbrev S32768 : Shape := ⟨1, ![32768]⟩

abbrev nBuf : Space → Nat
  | .hbm => 41
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S4096x1024, .f32⟩
  | .hbm, ⟨2, _⟩ => ⟨S4096, .f32⟩
  | .hbm, ⟨3, _⟩ => ⟨S1024x4x1024, .f32⟩
  | .hbm, ⟨4, _⟩ => ⟨S_, .f32⟩
  | .hbm, ⟨5, _⟩ => ⟨S1024x1024, .f32⟩
  | .hbm, ⟨6, _⟩ => ⟨S_, .f32⟩
  | .hbm, ⟨7, _⟩ => ⟨S1024x1024, .f32⟩
  | .hbm, ⟨8, _⟩ => ⟨S1024x1024, .f32⟩
  | .hbm, ⟨9, _⟩ => ⟨S1024x4, .f32⟩
  | .hbm, ⟨10, _⟩ => ⟨S_, .f32⟩
  | .hbm, ⟨11, _⟩ => ⟨S1024, .f32⟩
  | .hbm, ⟨12, _⟩ => ⟨S_, .f32⟩
  | .hbm, ⟨13, _⟩ => ⟨S1024, .f32⟩
  | .hbm, ⟨14, _⟩ => ⟨S1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S_, .f32⟩
  | .hbm, ⟨20, _⟩ => ⟨S32768x1024, .f32⟩
  | .hbm, ⟨21, _⟩ => ⟨S32768x1024, .f32⟩
  | .hbm, ⟨22, _⟩ => ⟨S_, .f32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S32768x1024, .f32⟩
  | .hbm, ⟨27, _⟩ => ⟨S32768x1024, .f32⟩
  | .hbm, ⟨28, _⟩ => ⟨S_, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S_, .f32⟩
  | .hbm, ⟨33, _⟩ => ⟨S32768x1024, .f32⟩
  | .hbm, ⟨34, _⟩ => ⟨S32768x1024, .f32⟩
  | .hbm, ⟨35, _⟩ => ⟨S32768x1024, .f32⟩
  | .hbm, ⟨36, _⟩ => ⟨S_, .f32⟩
  | .hbm, ⟨37, _⟩ => ⟨S32768x1024, .f32⟩
  | .hbm, ⟨38, _⟩ => ⟨S32768x1024, .f32⟩
  | .hbm, ⟨39, _⟩ => ⟨S_, .f32⟩
  | .hbm, ⟨40, _⟩ => ⟨S32768, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_v26 : Ref sig .tc := ⟨.hbm, 38, rfl⟩
abbrev main_cst_8 : Ref sig .tc := ⟨.hbm, 39, rfl⟩
abbrev main_v27 : Ref sig .tc := ⟨.hbm, 40, rfl⟩

abbrev nD : Nat := 1
abbrev τ : Topo := Topo.v7x

variable {F : FTy → Type} [FloatOps F]

class Facts₀ : Prop where
  shapeCasts_S4096x1024_S1024x4x1024 : S4096x1024.ShapeCasts S1024x4x1024
  reducesTo_S1024x4x1024_S1024x1024_d1 : S1024x4x1024.ReducesTo [1] S1024x1024
  h_S_ : 0 < S_.numel
  bcast_S_S1024x1024 : S_.BroadcastsInDim S1024x1024 (![] : Fin 0 → Fin S1024x1024.rank)
  shapeCasts_S4096_S1024x4 : S4096.ShapeCasts S1024x4
  reducesTo_S1024x4_S1024_d1 : S1024x4.ReducesTo [1] S1024
  bcast_S_S1024 : S_.BroadcastsInDim S1024 (![] : Fin 0 → Fin S1024.rank)
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  bcast_S_S32768x1024 : S_.BroadcastsInDim S32768x1024 (![] : Fin 0 → Fin S32768x1024.rank)
  reducesTo_S32768x1024_S32768_d1 : S32768x1024.ReducesTo [1] S32768
  dot_S32768x1024_S1024x1024_S32768x1024_1_1_0_0_n_n_wf : DotDims.WF S32768x1024 S1024x1024 S32768x1024 [1] [1] [0] [0] [] []

variable [Facts₀]

def dot_S32768x1024_S1024x1024_S32768x1024_1_1_0_0_n_n : DotDims S32768x1024 S1024x1024 S32768x1024 where
  lhsContracting := [1]
  rhsContracting := [1]
  lhsNonContracting := [0]
  rhsNonContracting := [0]
  lhsBatch := []
  rhsBatch := []
  wf := dot_S32768x1024_S1024x1024_S32768x1024_1_1_0_0_n_n_wf

class Facts : Prop extends Facts₀ where

variable [Facts]
-- ==== Proof.Spec.lean ====
/-
  The function both programs compute, and the two laws that join their arrangements of it.

  For arrays X [32768, 1024], W [1024, 1024] and B [1024] of extended reals, entry r of the result is the
  maximum over the 1024 columns n of  act (∑ k, X[r, k] · W[n, k] + B[n]),  where
  act y = ((1/2 · y) · (1 + tanh (c · (y + a · y³)))) · 2  is the scaled tanh form of GELU, the constants
  a, c, 1/2, 1, 2 being the values of five binary32 words that are never evaluated.

  Two laws. (1) The cube can be formed first and scaled after, a · ((y · y) · y), or scaled first,
  ((a · y) · y) · y: the product of extended reals is associative, so no finiteness is asked. (2) A maximum
  over the 1024 columns, started from −∞, is the running maximum of the four maxima over 256 consecutive
  columns each: a maximum in a linear order with a bottom does not depend on how its terms are grouped.
-/
import Idealize.ShloMosaic.PureOps.Ideal
import Idealize.ShloMosaic.PureOps.Ideal.Laws
import Idealize.ShloMosaic.Lib.ValueIdx

noncomputable section

namespace Cert.RowMax

open Idealize.ShloMosaic Idealize.ShloMosaic.ValueIdx

/-- The binary32 word of −∞ denotes the bottom of the extended reals. -/
theorem negInf_eq_bot : Ideal.ofBits .f32 0xFF800000#32 = (⊥ : EReal) := by
  simp [Ideal.ofBits, Ideal.ieee]

/-- The five constants of the activation, by their words. -/
abbrev cHalf : EReal := Ideal.ofBits .f32 0x3F000000#32
abbrev cCube : EReal := Ideal.ofBits .f32 0x3D372713#32
abbrev cTanh : EReal := Ideal.ofBits .f32 0x3F4C422A#32
abbrev cOne : EReal := Ideal.ofBits .f32 0x3F800000#32
abbrev cTwo : EReal := Ideal.ofBits .f32 0x40000000#32

/-- The activation with the cube term given: ((1/2 · y) · (1 + tanh (c · (y + q)))) · 2. -/
def actWith (y q : EReal) : EReal := ((cHalf * y) * (cOne + Ideal.tanh (cTanh * (y + q)))) * cTwo

/-- The scaled tanh form of GELU, the cube formed first: q = a · ((y · y) · y). -/
def act (y : EReal) : EReal := actWith y (cCube * ((y * y) * y))

/-- Law (1): scaling before cubing gives the same cube term. -/
theorem cube_scaled_first (y : EReal) : ((cCube * y) * y) * y = cCube * ((y * y) * y) := by
  simp only [mul_assoc]

/-- So the activation written with the cube scaled first is `act`. -/
theorem actWith_scaled_first (y : EReal) : actWith y (((cCube * y) * y) * y) = act y := by
  unfold act; rw [cube_scaled_first]

/-- Column `off + j` of the 1024, for a block of 256 columns starting at `off`. -/
def colAt (off : Nat) (h : off + 256 ≤ 1024) (j : Fin 256) : Fin 1024 := ⟨off + j.val, by have := j.isLt; omega⟩

/-- Law (2): the running maximum, from −∞, of the maxima over the four blocks of 256 columns is the maximum
    over all 1024 columns. -/
theorem fold_max_blocks (f : Fin 1024 → EReal) :
    max (max (max (max ⊥ (Finset.univ.fold max ⊥ fun j : Fin 256 => f (colAt 0 (by omega) j)))
        (Finset.univ.fold max ⊥ fun j : Fin 256 => f (colAt 256 (by omega) j)))
        (Finset.univ.fold max ⊥ fun j : Fin 256 => f (colAt 512 (by omega) j)))
        (Finset.univ.fold max ⊥ fun j : Fin 256 => f (colAt 768 (by omega) j))
      = Finset.univ.fold max ⊥ f := by
  have up : ∀ (off : Nat) (h : off + 256 ≤ 1024),
      (Finset.univ.fold max ⊥ fun j : Fin 256 => f (colAt off h j)) ≤ Finset.univ.fold max ⊥ f := fun off h =>
    (Finset.fold_max_le _).2 ⟨bot_le, fun j _ => (Finset.le_fold_max _).2 (Or.inr ⟨colAt off h j, Finset.mem_univ _, le_rfl⟩)⟩
  have down : ∀ (off : Nat) (h : off + 256 ≤ 1024) (n : Fin 1024), off ≤ n.val → n.val < off + 256 →
      f n ≤ Finset.univ.fold max ⊥ fun j : Fin 256 => f (colAt off h j) := fun off h n h1 h2 =>
    (Finset.le_fold_max _).2 (Or.inr ⟨⟨n.val - off, by omega⟩, Finset.mem_univ _,
      le_of_eq (congrArg f (Fin.ext (by show n.val = off + (n.val - off); omega)))⟩)
  apply le_antisymm
  · exact max_le (max_le (max_le (max_le bot_le (up 0 _)) (up 256 _)) (up 512 _)) (up 768 _)
  · refine (Finset.fold_max_le _).2 ⟨bot_le, fun n _ => ?_⟩
    have hn := n.isLt
    by_cases h0 : n.val < 256
    · exact le_max_of_le_left (le_max_of_le_left (le_max_of_le_left (le_max_of_le_right (down 0 _ n (by omega) (by omega)))))
    by_cases h1 : n.val < 512
    · exact le_max_of_le_left (le_max_of_le_left (le_max_of_le_right (down 256 _ n (by omega) (by omega))))
    by_cases h2 : n.val < 768
    · exact le_max_of_le_left (le_max_of_le_right (down 512 _ n (by omega) (by omega)))
    · exact le_max_of_le_right (down 768 _ n (by omega) (by omega))

/-- Entry (r, n) of the affine map: row r of X against row n of W, plus B n. -/
def pre (X : (⟨2, ![32768, 1024]⟩ : Shape).Idx → EReal) (W : (⟨2, ![1024, 1024]⟩ : Shape).Idx → EReal)
    (B : (⟨1, ![1024]⟩ : Shape).Idx → EReal) (r : Fin 32768) (n : Fin 1024) : EReal :=
  (∑ k : Fin 1024, X (ix2 r k) * W (ix2 n k)) + B (ix1 n)

/-- THE RESULT: entry r is the maximum over the columns of the activation of the affine map's row r. -/
def rowMax (X : (⟨2, ![32768, 1024]⟩ : Shape).Idx → EReal) (W : (⟨2, ![1024, 1024]⟩ : Shape).Idx → EReal)
    (B : (⟨1, ![1024]⟩ : Shape).Idx → EReal) : (⟨1, ![32768]⟩ : Shape).Idx → EReal :=
  fun i => Finset.univ.fold max ⊥ fun n : Fin 1024 => act (pre X W B (i 0) n)

end Cert.RowMax

end
-- ==== Proof.RefValue.lean ====
/-
  The reference computes the row maxima of Spec: its result at r is the maximum over the 1024 columns n, from −∞,
  of the activation of  ∑ k, x[r, k] · W[n, k] + B[n],  W and B the pooled weight and bias (which are not opened).
  The reference scales before it cubes, ((a · y) · y) · y; by the associativity of the product that is the cube
  term a · ((y · y) · y) of Spec's activation.
-/
import proofs.«116591_j58128087384687_2_alg».proof.Proof.Gen.ReferenceIdeal.Read
import proofs.«116591_j58128087384687_2_alg».proof.Proof.Spec
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx Cert.RowMax

/-- The affine map at (r, n). -/
theorem v11_apply (x0 : (⟨S32768x1024, .f32⟩ : BufTy).Contents (Elt Ideal)) (x1 : (⟨S4096x1024, .f32⟩ : BufTy).Contents (Elt Ideal))
    (x2 : (⟨S4096, .f32⟩ : BufTy).Contents (Elt Ideal)) (r : Fin 32768) (n : Fin 1024) :
    val_main_v11 (F := Ideal) x0 x1 x2 (ix2 r n)
      = pre x0 (val_main_v3 (F := Ideal) x1) (val_main_v7 (F := Ideal) x2) r n := by
  rw [val_main_v11_apply, val_main_v8_apply, val_main_v10_apply, val_main_v9_apply]
  have el : ∀ k : Fin 1024, lidx_main_v8 (ix2 r n) k = ix2 r k := fun k => funext fun a => Fin.ext (by
    match a with | ⟨0, _⟩ => rfl | ⟨1, _⟩ => rfl)
  have er : ∀ k : Fin 1024, ridx_main_v8 (ix2 r n) k = ix2 n k := fun k => funext fun a => Fin.ext (by
    match a with | ⟨0, _⟩ => rfl | ⟨1, _⟩ => rfl)
  have eb : idx_main_v9 (idx_main_v10 (ix2 r n)) = ix1 n := funext fun a => Fin.ext (by
    match a with | ⟨0, _⟩ => rfl)
  rw [eb]
  unfold pre
  exact congrArg (· + val_main_v7 (F := Ideal) x2 (ix1 n)) (Finset.sum_congr rfl fun k _ => by rw [el, er])

/-- The activation applied, at any entry: scaled-then-cubed is Spec's cube term. -/
theorem v26_apply (x0 : (⟨S32768x1024, .f32⟩ : BufTy).Contents (Elt Ideal)) (x1 : (⟨S4096x1024, .f32⟩ : BufTy).Contents (Elt Ideal))
    (x2 : (⟨S4096, .f32⟩ : BufTy).Contents (Elt Ideal)) (i : S32768x1024.Idx) :
    val_main_v26 (F := Ideal) x0 x1 x2 i = act (val_main_v11 (F := Ideal) x0 x1 x2 i) := by
  rw [val_main_v26_apply, val_main_v25_apply, val_main_cst_7_apply, val_main_v24_apply, val_main_v13_apply, val_main_v12_apply,
    val_main_cst_3_apply, val_main_v23_apply, val_main_v22_apply, val_main_cst_6_apply, val_main_v21_apply, val_main_v20_apply,
    val_main_v19_apply, val_main_cst_5_apply, val_main_v18_apply, val_main_v17_apply, val_main_v16_apply, val_main_v15_apply,
    val_main_v14_apply, val_main_cst_4_apply]
  exact actWith_scaled_first _

/-- The row reduction's shape fact, as the library's lemma on a one-axis reduce asks for it. -/
theorem reduces_rows : S32768x1024.Reduces [1] S32768 := by decide

/-- Column n put back under row r. -/
theorem lift_row (r : Fin 32768) (n : Fin (S32768x1024.size 1)) :
    reduces_rows.lift (ix1 r) n = ix2 r (⟨n.val, n.isLt⟩ : Fin 1024) := by
  funext c; apply Fin.ext
  fin_cases c <;> rfl

/-- THE REFERENCE'S RESULT is Spec's row maxima of the argument rows, the pooled weight and the pooled bias. -/
theorem result_eq (x0 : (⟨S32768x1024, .f32⟩ : BufTy).Contents (Elt Ideal)) (x1 : (⟨S4096x1024, .f32⟩ : BufTy).Contents (Elt Ideal))
    (x2 : (⟨S4096, .f32⟩ : BufTy).Contents (Elt Ideal)) :
    val_main_v27 (F := Ideal) x0 x1 x2 = rowMax x0 (val_main_v3 (F := Ideal) x1) (val_main_v7 (F := Ideal) x2) := by
  funext i
  obtain ⟨r, rfl⟩ : ∃ r : Fin 32768, i = ix1 r := ⟨i 0, eq_ix1 i⟩
  unfold val_main_v27
  refine (Host.reduce_eq_fold_single (FloatOps.maximumf (F := Ideal) (φ := .f32)) (val_main_v26 (F := Ideal) x0 x1 x2)
    (val_main_cst_8 (F := Ideal)) reducesTo_S32768x1024_S32768_d1 reduces_rows h_S_ (ix1 r)).trans ?_
  have hf : (val_main_v26 (F := Ideal) x0 x1 x2 ∘ reduces_rows.lift (ix1 r))
      = fun n : Fin 1024 => act (pre x0 (val_main_v3 (F := Ideal) x1) (val_main_v7 (F := Ideal) x2) r n) :=
    funext fun n => by
      show val_main_v26 (F := Ideal) x0 x1 x2 (reduces_rows.lift (ix1 r) n) = _
      rw [lift_row, v26_apply, v11_apply]
      rfl
  have hb : (val_main_cst_8 (F := Ideal) (Shape.Idx.first h_S_) : EReal) = ⊥ := negInf_eq_bot
  rw [hb]
  exact congrArg (fun f => Finset.fold max (⊥ : EReal) f (Finset.univ : Finset (Fin 1024))) hf

end Cert.ReferenceIdeal.RefValue

end
-- ==== Proof.Layout.lean ====
/-
  Three changes of shape read at coordinates, for any extents: a vector [a] viewed as a column [a, 1]; a column
  [a, 1] viewed as a slab [1, 1, a]; and a stack [g, 1, a] flattened to [n] with n = g · a. Each keeps the
  row-major position, so the entry read is the one at the same position.
-/
import Idealize.ShloMosaic.Lib.Pipeline.Value
import Idealize.ShloMosaic.Lib.ValueIdx

noncomputable section

namespace Cert.RowMax.Layout

open Idealize.ShloMosaic Idealize.ShloMosaic.ValueIdx

variable {α : Type}

/-- An [a] vector cast to a column [a, 1] reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column [a, 1] cast to a slab [1, 1, a] reads, at (u, v, i), the operand at (i, 0). -/
theorem shapeCast_a1_11a_apply {a : ℕ} (x : (⟨2, ![a, 1]⟩ : Shape).Idx → α) (h : (⟨2, ![a, 1]⟩ : Shape).ShapeCasts ⟨3, ![1, 1, a]⟩)
    (u v : Fin 1) (i : Fin a) : shapeCast ⟨3, ![1, 1, a]⟩ x h (ix3 u v i) = x (ix2 i (0 : Fin 1)) :=
  shapeCast_apply x h _ _ (by
    have hu : u.val = 0 := by omega
    have hv : v.val = 0 := by omega
    rw [Shape.rowMajor_val_two, Shape.rowMajor_val_three]
    show i.val * 1 + 0 = (u.val * 1 + v.val) * a + i.val
    rw [hu, hv]; omega)

/-- A stack [g, 1, a] flattened to [n] reads, at position p = t · a + r, the operand at (t, 0, r). -/
theorem shapeCast_g1a_flat_apply {g a n : ℕ} (x : (⟨3, ![g, 1, a]⟩ : Shape).Idx → α) (h : (⟨3, ![g, 1, a]⟩ : Shape).ShapeCasts ⟨1, ![n]⟩)
    (t : Fin g) (r : Fin a) (p : Fin n) (hp : p.val = t.val * a + r.val) :
    shapeCast ⟨1, ![n]⟩ x h (ix1 p) = x (ix3 t (0 : Fin 1) r) :=
  shapeCast_apply x h _ _ (by
    rw [Shape.rowMajor_val_three, Shape.rowMajor_val_one]
    show (t.val * 1 + 0) * a + r.val = p.val
    rw [hp, Nat.mul_one, Nat.add_zero])

end Cert.RowMax.Layout

end
-- ==== Proof.KernelBody.lean ====
/-
  What the kernel body leaves in its output block, read at an entry.

  The body works on a block of 1024 rows. It takes the 1024 columns 256 at a time: for each block of columns it
  forms the affine map  y = rows · weights + bias,  the cube term  a · ((y · y) · y),  the activation, and the
  maximum over the block's 256 columns from −∞; and it keeps the running maximum of these, started at −∞. The
  result is stored as a [1, 1, 1024] slab, entry (0, 0, r) being row r's running maximum. By the grouping law
  for maxima (Spec, law 2) that entry is the maximum over all 1024 columns.
-/
import proofs.«116591_j58128087384687_2_alg».proof.Proof.Gen.KernelIdeal.Frame
import proofs.«116591_j58128087384687_2_alg».proof.Proof.Spec
import proofs.«116591_j58128087384687_2_alg».proof.Proof.Layout
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Cert.RowMax Cert.RowMax.Layout

/-- The contraction of the body's matrix products: rows [1024, 1024] against a block of 256 columns [1024, 256]. -/
abbrev DK : DotDims S1024x1024 S1024x256 S1024x256 := dot_S1024x1024_S1024x256_S1024x256_1_0_0_1_n_n

/-! ## The three stages of one block of columns -/

/-- The affine map on one block of columns: rows · weights + bias (the bias row spread over the rows). -/
def blockPre (lhs : FVec Ideal S1024x1024 .bf16) (w : FVec Ideal S1024x256 .bf16) (b : FVec Ideal S1x256 .f32) :
    FVec Ideal S1024x256 .f32 :=
  addf (matmul DK none lhs (shapeCast S1024x256 w shapeCasts_S1024x256_S1024x256) (constant S1024x256 .f32 0x00000000#32))
    (broadcastTo S1024x256 (shapeCast S1x256 b shapeCasts_S1x256_S1x256) broadcasts_S1x256_S1024x256)

/-- The cube term a · ((y · y) · y). -/
def blockCube (y : FVec Ideal S1024x256 .f32) : FVec Ideal S1024x256 .f32 :=
  mulf (broadcast S1024x256 (Scalar.ofBits (F := Ideal) .f32 0x3D372713#32)) (mulf (mulf y y) y)

/-- The activation on one block of columns, from the affine map `y` and the cube term `q`. -/
def blockAct (y q : FVec Ideal S1024x256 .f32) : FVec Ideal S1024x256 .f32 :=
  mulf (mulf (mulf (broadcast S1024x256 (Scalar.ofBits (F := Ideal) .f32 0x3F000000#32)) y)
      (addf (broadcast S1024x256 (Scalar.ofBits (F := Ideal) .f32 0x3F800000#32))
        (tanh (mulf (broadcast S1024x256 (Scalar.ofBits (F := Ideal) .f32 0x3F4C422A#32)) (addf y q)))))
    (broadcast S1024x256 (Scalar.ofBits (F := Ideal) .f32 0x40000000#32))

/-- The maximum over a block's 256 columns, from −∞, row by row, as a column. -/
def blockMax (src : FVec Ideal S1024x256 .f32) : FVec Ideal S1024x1 .f32 :=
  shapeCast S1024x1 (multiReduction .maximumf [1] S1024 src 0xFF800000#32 reduces_S1024x256_S1024 (.inl rfl) rfl)
    shapeCasts_S1024_S1024x1

/-- From the affine map `y` and the cube term `q` to the block's row maxima, as a column. -/
def blockTail (y q : FVec Ideal S1024x256 .f32) : FVec Ideal S1024x1 .f32 := blockMax (blockAct y q)

/-! ## The payloads are these stages composed -/

theorem pay3_eq (v0 : FVec Ideal S1024x1024 .f32) (v3 : FVec Ideal S1024x256 .bf16) (v5 : FVec Ideal S1x256 .f32) :
    k0_pay3 (F := Ideal) v0 v3 v5
      = maximumf (broadcast S1024x1 (Scalar.ofBits (F := Ideal) .f32 0xFF800000#32))
          (blockTail (blockPre (k0_pay2 v0) v3 v5) (blockCube (blockPre (k0_pay2 v0) v3 v5))) := rfl

theorem pay4_eq (v0 : FVec Ideal S1024x1024 .f32) (v28 : FVec Ideal S1024x256 .bf16) (v30 : FVec Ideal S1x256 .f32) :
    k0_pay4 (F := Ideal) v0 v28 v30 = blockPre (k0_pay2 v0) v28 v30 := rfl

theorem pay5_eq (v0 : FVec Ideal S1024x1024 .f32) (v28 : FVec Ideal S1024x256 .bf16) (v30 : FVec Ideal S1x256 .f32) :
    k0_pay5 (F := Ideal) v0 v28 v30 = blockCube (k0_pay4 v0 v28 v30) := rfl

theorem pay6_eq (v1 : FVec Ideal S1024x1024 .bf16) (v27 : FVec Ideal S1024x1 .f32) (v34 v38 : FVec Ideal S1024x256 .f32)
    (v53 : FVec Ideal S1024x256 .bf16) (v55 : FVec Ideal S1x256 .f32) :
    k0_pay6 (F := Ideal) v1 v27 v34 v38 v53 v55
      = maximumf (maximumf v27 (blockTail v34 v38)) (blockTail (blockPre v1 v53 v55) (blockCube (blockPre v1 v53 v55))) := rfl

theorem pay1_eq (v1 : FVec Ideal S1024x1024 .bf16) (v77 : FVec Ideal S1024x1 .f32) (v78 : FVec Ideal S1024x256 .bf16)
    (v80 : FVec Ideal S1x256 .f32) :
    k0_pay1 (F := Ideal) v1 v77 (k0_pay7 v78) v80
      = shapeCast S1x1x1024 (maximumf v77 (blockTail (blockPre v1 v78 v80) (blockCube (blockPre v1 v78 v80))))
          shapeCasts_S1024x1_S1x1x1024 := rfl

/-! ## Each stage read at an entry -/

/-- The contracted index placed in the rows operand: (r, k). -/
theorem lhsIdx_eq (r : Fin 1024) (j : Fin 256) (k : Fin 1024) :
    DK.lhsIdx (ix2 r j) ((contrEquiv1 DK 1024 rfl rfl).symm k) = ix2 r k := by
  have hk := contrEquiv1_symm_val DK 1024 rfl rfl k
  funext a; apply Fin.ext
  match a with
  | ⟨0, _⟩ =>
    show (DK.lhsIdx (ix2 r j) _ 0).val = r.val
    unfold DotDims.lhsIdx
    rw [dif_neg (show ¬(0 : Fin S1024x1024.rank) ∈ DK.lhsBatch by decide), dif_pos (show (0 : Fin S1024x1024.rank) ∈ DK.lhsNonContracting by decide)]
    rfl
  | ⟨1, _⟩ => exact (DK.lhsIdx_val_of_single rfl (ix2 r j) _).trans hk

/-- The contracted index placed in the weights operand: (k, j). -/
theorem rhsIdx_eq (r : Fin 1024) (j : Fin 256) (k : Fin 1024) :
    DK.rhsIdx (ix2 r j) ((contrEquiv1 DK 1024 rfl rfl).symm k) = ix2 k j := by
  have hk := contrEquiv1_symm_val DK 1024 rfl rfl k
  funext a; apply Fin.ext
  match a with
  | ⟨0, _⟩ => exact (DK.rhsIdx_val_of_single rfl (ix2 r j) _).trans hk
  | ⟨1, _⟩ =>
    show (DK.rhsIdx (ix2 r j) _ 1).val = j.val
    unfold DotDims.rhsIdx
    rw [dif_neg (show ¬(1 : Fin S1024x256.rank) ∈ DK.rhsBatch by decide), dif_pos (show (1 : Fin S1024x256.rank) ∈ DK.rhsNonContracting by decide)]
    rfl

/-- The affine map at (r, j): row r of the rows against column j of the weights, plus the bias at j. -/
theorem blockPre_apply (lhs : FVec Ideal S1024x1024 .bf16) (w : FVec Ideal S1024x256 .bf16) (b : FVec Ideal S1x256 .f32)
    (r : Fin 1024) (j : Fin 256) :
    blockPre lhs w b (ix2 r j) = (∑ k : Fin 1024, lhs (ix2 r k) * w (ix2 k j)) + b (ix2 (0 : Fin 1) j) := by
  unfold blockPre
  rw [shapeCast_self, shapeCast_self]
  show FloatOps.matmul DK none lhs w (constant S1024x256 .f32 0x00000000#32) (ix2 r j)
      + broadcastTo S1024x256 b broadcasts_S1x256_S1024x256 (ix2 r j) = _
  rw [Ideal.matmul_constant_zero_apply, broadcastTo_1b_ab_apply, ← Equiv.sum_comp (contrEquiv1 DK 1024 rfl rfl).symm]
  refine congrArg (· + b (ix2 (0 : Fin 1) j)) (Finset.sum_congr rfl fun k _ => ?_)
  rw [lhsIdx_eq, rhsIdx_eq]

/-- Column j put back under row r. -/
theorem lift_row (r : Fin 1024) (j : Fin (S1024x256.size 1)) :
    (reduces_S1024x256_S1024 : S1024x256.Reduces [1] S1024).lift (ix1 r) j = ix2 r (⟨j.val, j.isLt⟩ : Fin 256) := by
  funext c; apply Fin.ext
  fin_cases c <;> rfl

/-- The block's row maxima at row r: the maximum, from −∞, over the block's 256 columns of the activation. -/
theorem blockMax_apply (src : FVec Ideal S1024x256 .f32) (r : Fin 1024) (u : Fin 1) :
    blockMax src (ix2 r u) = Finset.univ.fold max ⊥ fun j : Fin 256 => src (ix2 r j) := by
  unfold blockMax
  refine (shapeCast_a_a1_apply _ shapeCasts_S1024_S1024x1 r u).trans ?_
  refine (Ideal.multiReduction_maximumf_single (φ := .f32) (s := S1024x256) (t := S1024) (a := (1 : Fin 2)) src 0xFF800000#32
    reduces_S1024x256_S1024 (.inl rfl) rfl (ix1 r)).trans ?_
  have hf : (src ∘ (reduces_S1024x256_S1024 : S1024x256.Reduces [1] S1024).lift (ix1 r)) = fun j : Fin 256 => src (ix2 r j) :=
    funext fun j => congrArg src (lift_row r j)
  have hb : (FloatOps.ofBits (F := Ideal) .f32 0xFF800000#32 : EReal) = ⊥ := negInf_eq_bot
  rw [hb]
  exact congrArg (fun f => Finset.fold max (⊥ : EReal) f (Finset.univ : Finset (Fin 256))) hf

theorem blockTail_apply (y q : FVec Ideal S1024x256 .f32) (r : Fin 1024) (u : Fin 1) :
    blockTail y q (ix2 r u) = Finset.univ.fold max ⊥ fun j : Fin 256 => actWith (y (ix2 r j)) (q (ix2 r j)) :=
  blockMax_apply (blockAct y q) r u

/-! ## The output block read at an entry -/

theorem hz2 : (![0, 0] : Fin 2 → Nat) = fun _ => 0 := funext fun a => by fin_cases a <;> rfl
theorem hz3 : (![0, 0, 0] : Fin 3 → Nat) = fun _ => 0 := funext fun a => by fin_cases a <;> rfl

/-- ONE BLOCK OF COLUMNS, from the operands' blocks: the weights' and the bias's 256 columns from `off` are read
    through rectangles at that offset, so row r's maximum over the block is the maximum over the columns
    `off + j` of the activation of the affine map there. -/
theorem chunk_apply (x0 : Vec Ideal S1024x1024 .f32) (x1 : Vec Ideal S1024x1024 .bf16) (x2 : Vec Ideal S1x1024 .f32)
    (off : Nat) (h : off + 256 ≤ 1024)
    (inb1 : ∀ a, (![0, off] : Fin 2 → Nat) a + S1024x256.size a ≤ S1024x1024.size a)
    (inb2 : ∀ a, (![0, off] : Fin 2 → Nat) a + S1x256.size a ≤ S1x1024.size a) (r : Fin 1024) (u : Fin 1) :
    blockTail (blockPre (k0_pay2 x0) (View.ld x1 (Rect.unit (s := S1024x1024) ![0, off] S1024x256.size inb1))
          (View.ld x2 (Rect.unit (s := S1x1024) ![0, off] S1x256.size inb2)))
        (blockCube (blockPre (k0_pay2 x0) (View.ld x1 (Rect.unit (s := S1024x1024) ![0, off] S1024x256.size inb1))
          (View.ld x2 (Rect.unit (s := S1x1024) ![0, off] S1x256.size inb2)))) (ix2 r u)
      = Finset.univ.fold max ⊥ fun j : Fin 256 =>
          act ((∑ k : Fin 1024, x0 (ix2 r k) * x1 (ix2 k (colAt off h j))) + x2 (ix2 (0 : Fin 1) (colAt off h j))) := by
  rw [blockTail_apply]
  refine congrArg (fun f => Finset.fold max (⊥ : EReal) f (Finset.univ : Finset (Fin 256))) (funext fun j => ?_)
  show act (blockPre _ _ _ (ix2 r j)) = _
  rw [blockPre_apply]
  have e1 : ∀ k : Fin 1024,
      (View.ld x1 (Rect.unit (s := S1024x1024) ![0, off] S1024x256.size inb1) : FVec Ideal S1024x256 .bf16) (ix2 k j)
        = x1 (ix2 k (colAt off h j)) := fun k =>
    congrArg x1 (funext fun a => Fin.ext (by
      match a with
      | ⟨0, _⟩ => show 0 + 1 * k.val = k.val; omega
      | ⟨1, _⟩ => show off + 1 * j.val = off + j.val; omega))
  have e2 : (View.ld x2 (Rect.unit (s := S1x1024) ![0, off] S1x256.size inb2) : FVec Ideal S1x256 .f32) (ix2 (0 : Fin 1) j)
      = x2 (ix2 (0 : Fin 1) (colAt off h j)) :=
    congrArg x2 (funext fun a => Fin.ext (by
      match a with
      | ⟨0, _⟩ => rfl
      | ⟨1, _⟩ => show off + 1 * j.val = off + j.val; omega))
  rw [e2]
  exact congrArg act (congrArg (· + x2 (ix2 (0 : Fin 1) (colAt off h j))) (Finset.sum_congr rfl fun k _ => by rw [e1 k]; rfl))

/-- THE OUTPUT BLOCK at (0, 0, r): the maximum over all 1024 columns, from −∞, of the activation of row r of the rows
    block against the weights' columns plus the bias — the four blocks' maxima joined by the grouping law. -/
theorem out_apply (x0 : Vec Ideal S1024x1024 .f32) (x1 : Vec Ideal S1024x1024 .bf16) (x2 : Vec Ideal S1x1024 .f32)
    (u v : Fin 1) (r : Fin 1024) :
    out0_3 (F := Ideal) x0 x1 x2 (ix3 u v r)
      = Finset.univ.fold max ⊥ fun n : Fin 1024 =>
          act ((∑ k : Fin 1024, x0 (ix2 r k) * x1 (ix2 k n)) + x2 (ix2 (0 : Fin 1) n)) := by
  unfold out0_3
  rw [View.canon_unit_zero hz3]
  simp only [View.ld_unit_zero (S := S1024x1024) hz2]
  rw [pay1_eq, pay6_eq, pay3_eq, pay5_eq, pay4_eq]
  refine (shapeCast_a1_11a_apply _ shapeCasts_S1024x1_S1x1x1024 u v r).trans ?_
  show max (max (max (max (Ideal.ofBits .f32 0xFF800000#32) (blockTail _ _ (ix2 r (0 : Fin 1)))) (blockTail _ _ (ix2 r (0 : Fin 1))))
      (blockTail _ _ (ix2 r (0 : Fin 1)))) (blockTail _ _ (ix2 r (0 : Fin 1))) = _
  rw [negInf_eq_bot, chunk_apply x0 x1 x2 0 (by omega), chunk_apply x0 x1 x2 256 (by omega), chunk_apply x0 x1 x2 512 (by omega),
    chunk_apply x0 x1 x2 768 (by omega)]
  exact fold_max_blocks fun n => act ((∑ k : Fin 1024, x0 (ix2 r k) * x1 (ix2 k n)) + x2 (ix2 (0 : Fin 1) n))

end Cert.KernelIdeal.Body

end
-- ==== Proof.KernelHost.lean ====
/-
  What the region finds in its second and third operands.

  Before the region the program averages the weight's rows four at a time — the [4096, 1024] weight viewed as
  [1024, 4, 1024], summed over the middle axis and divided by 4 — and the bias's entries likewise; the pooled weight
  is then transposed (a change of format after it is the identity on extended reals) and the pooled bias viewed as
  one row. So the second operand at (k, n) is the pooled weight at (n, k), and the third at (0, n) the pooled bias
  at n. The pooling itself is never opened: both programs apply the same operations to the same arrays.
-/
import proofs.«116591_j58128087384687_2_alg».proof.Proof.Gen.KernelIdeal.Frame
import Idealize.ShloMosaic.Lib.ValueLayout
import Idealize.ShloMosaic.Lib.ValueIdx
import Idealize.ShloMosaic.Lib.Pipeline.Value
import Idealize.ShloMosaic.Lib.StableHlo.Run

noncomputable section

namespace Cert.KernelIdeal.HostSide

open Cert.KernelIdeal Cert.KernelIdeal.Gen Idealize.ShloMosaic Idealize.ShloMosaic.TcCoe Idealize.ShloMosaic.ValueIdx
open Idealize.SL.Sem Idealize.ShloMosaic.StableHlo

/-- The pooled weight: groups of four consecutive rows averaged. -/
def pooledW (x1 : FVec Ideal S4096x1024 .f32) : FVec Ideal S1024x1024 .f32 :=
  Host.divf (F := Ideal)
    (Host.reduceAdd (F := Ideal) (shapeCast S1024x4x1024 x1 shapeCasts_S4096x1024_S1024x4x1024) (constant (F := Ideal) S_ .f32 0x00000000#32)
      reducesTo_S1024x4x1024_S1024x1024_d1 h_S_)
    (broadcastInDim S1024x1024 ![] bcast_S_S1024x1024 (constant (F := Ideal) S_ .f32 0x40800000#32))

/-- The pooled bias: groups of four consecutive entries averaged. -/
def pooledB (x2 : FVec Ideal S4096 .f32) : FVec Ideal S1024 .f32 :=
  Host.divf (F := Ideal)
    (Host.reduceAdd (F := Ideal) (shapeCast S1024x4 x2 shapeCasts_S4096_S1024x4) (constant (F := Ideal) S_ .f32 0x00000000#32)
      reducesTo_S1024x4_S1024_d1 h_S_)
    (broadcastInDim S1024 ![] bcast_S_S1024 (constant (F := Ideal) S_ .f32 0x40800000#32))

variable (m : (ℓ : Loc nD τ sig) → Buf (Elt Ideal) ℓ)

/-- The second operand as the region finds it: the pooled weight transposed. -/
theorem V_weights (c : Dev nD) :
    (V m c main_v9 : S1024x1024.Idx → EReal)
      = truncf .bf16 (transpose S1024x1024 [1, 0] (pooledW (m ((c : Thread nD τ).loc main_arg1))) transposes_S1024x1024_S1024x1024_1_0)
          bitsLt_bf16_f32 := by
  show StableHlo.after hostOps0 (fun b => m (c, b)) (Proc.devRef .tc main_v9) = _
  after_results
  rfl

/-- The third operand as the region finds it: the pooled bias as one row. -/
theorem V_bias (c : Dev nD) :
    (V m c main_v10 : S1x1024.Idx → EReal)
      = shapeCast S1x1024 (pooledB (m ((c : Thread nD τ).loc main_arg2))) shapeCasts_S1024_S1x1024 := by
  show StableHlo.after hostOps0 (fun b => m (c, b)) (Proc.devRef .tc main_v10) = _
  after_results
  rfl

/-- The second operand at (k, n) is the pooled weight at (n, k). -/
theorem V_weights_apply (c : Dev nD) (k n : Fin 1024) :
    (V m c main_v9 : S1024x1024.Idx → EReal) (ix2 k n) = pooledW (m ((c : Thread nD τ).loc main_arg1)) (ix2 n k) := by
  rw [V_weights]
  exact transpose_ix2_apply (pooledW (m ((c : Thread nD τ).loc main_arg1))) transposes_S1024x1024_S1024x1024_1_0 k n

/-- The third operand at (0, n) is the pooled bias at n. -/
theorem V_bias_apply (c : Dev nD) (u : Fin 1) (n : Fin 1024) :
    (V m c main_v10 : S1x1024.Idx → EReal) (ix2 u n) = pooledB (m ((c : Thread nD τ).loc main_arg2)) (ix1 n) := by
  rw [V_bias]
  exact shapeCast_a_1a_apply (pooledB (m ((c : Thread nD τ).loc main_arg2))) shapeCasts_S1024_S1x1024 u n

end Cert.KernelIdeal.HostSide

end
-- ==== Proof.KernelValue.lean ====
/-
  The kernel's result as one function of the arguments.

  Grid point t works on rows 1024·t … 1024·t + 1023 of the rows operand, on the whole of the other two operands, and
  writes block t of the [32, 1, 1024] output: by the body's reading its entry (0, 0, r) is row 1024·t + r's maximum. The
  32 blocks tile the output, so the output array ends as the slab of all 32768 row maxima; the program's last
  operation flattens the slab, position t·1024 + r holding row 1024·t + r's maximum.
-/
import proofs.«116591_j58128087384687_2_alg».proof.Proof.Gen.KernelIdeal.Frame
import proofs.«116591_j58128087384687_2_alg».proof.Proof.KernelBody
import proofs.«116591_j58128087384687_2_alg».proof.Proof.KernelHost
import proofs.«116591_j58128087384687_2_alg».proof.Proof.Spec
import proofs.«116591_j58128087384687_2_alg».proof.Proof.Layout
import Idealize.ShloMosaic.Lib.Pipeline.Value
import Idealize.ShloMosaic.Lib.StableHlo.Run

noncomputable section

namespace Cert.KernelIdeal.RowValue

open Cert.KernelIdeal Cert.KernelIdeal.Gen Idealize.ShloMosaic Idealize.ShloMosaic.TcCoe Idealize.ShloMosaic.ValueIdx
open Idealize.SL.Sem Idealize.ShloMosaic.StableHlo Cert.RowMax Cert.RowMax.Layout Cert.KernelIdeal.Body Cert.KernelIdeal.HostSide

variable (m : (ℓ : Loc nD τ sig) → Buf (Elt Ideal) ℓ) (ρ : Dev nD → PrngReg)

/-- The row maxima laid out as the region's output: entry (t, 0, r) is row 1024·t + r's. -/
def slab (X : S32768x1024.Idx → EReal) (W : S1024x1024.Idx → EReal) (B : S1024.Idx → EReal) : S32x1x1024.Idx → EReal :=
  fun i => rowMax X W B (ix1 (⟨(i 0).val * 1024 + (i 2).val, by
    have h0 : (i 0).val < 32 := (i 0).isLt
    have h2 : (i 2).val < 1024 := (i 2).isLt
    omega⟩ : Fin 32768))

/-- The printed index maps over the grid: the rows operand and the output move with the point, the other two stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- WHAT POINT t WRITES BACK is block t of the slab of the arguments' row maxima. -/
theorem flushed_eq (c : Dev nD) (t : Fin cfg0.N) :
    (dats (F := Ideal) m 0 c).flushed 3 t = ((cfg0.win 3).blk t).view.read (Elt Ideal)
      (slab (m ((c : Thread nD τ).loc main_arg0)) (pooledW (m ((c : Thread nD τ).loc main_arg1)))
        (pooledB (m ((c : Thread nD τ).loc main_arg2)))) := by
  show (cfg0.win 3).cut (grid0.coords t) ((dats (F := Ideal) m 0 c).after 3 t) = _
  rw [after0_3]
  obtain ⟨e00, e01, e10, e11, e20, e21, e30, e31, e32⟩ := idx_facts t
  have ht : t.val < 32 := lt_of_lt_of_eq t.isLt N_0
  funext y
  obtain ⟨u, v, r, rfl⟩ : ∃ (u v : Fin 1) (r : Fin 1024), y = ix3 u v r := ⟨y 0, y 1, y 2, eq_ix3 y⟩
  have hu : u.val = 0 := by omega
  have hv : v.val = 0 := by omega
  show out0_3 (F := Ideal) (iblk m c 0 t) (iblk m c 1 t) (iblk m c 2 t) (ix3 u v r)
    = slab _ _ _ (((cfg0.win 3).blk t).view.emb (ix3 u v r))
  rw [out_apply (iblk m c 0 t) (iblk m c 1 t) (iblk m c 2 t) u v r]
  -- the output entry's place in the array
  have e3 : ((cfg0.win 3).blk t).view.emb (ix3 u v r)
      = (ix3 (⟨t.val, ht⟩ : Fin 32) (0 : Fin 1) r : S32x1x1024.Idx) := by
    funext a; apply Fin.ext
    match a with
    | ⟨0, _⟩ => show win0_3.index t (0 : Fin 3) * 1 + 1 * u.val = t.val; omega
    | ⟨1, _⟩ => show win0_3.index t (1 : Fin 3) * 1 + 1 * v.val = 0; omega
    | ⟨2, _⟩ => show win0_3.index t (2 : Fin 3) * 1024 + 1 * r.val = r.val; omega
  rw [e3]
  show _ = rowMax _ _ _ (ix1 (⟨t.val * 1024 + r.val, by omega⟩ : Fin 32768))
  unfold rowMax
  refine congrArg (fun f => Finset.fold max (⊥ : EReal) f (Finset.univ : Finset (Fin 1024))) (funext fun n => congrArg act ?_)
  unfold pre
  -- the three operands' blocks, read where the output entry's row and the column say
  have h0 : ∀ k : Fin 1024, iblk m c 0 t (ix2 r k)
      = m ((c : Thread nD τ).loc main_arg0) (ix2 (⟨t.val * 1024 + r.val, by omega⟩ : Fin 32768) k) := fun k => by
    show V m c main_arg0 (((cfg0.win 0).blk t).view.emb (ix2 r k)) = _
    rw [V_main_arg0]
    refine congrArg (m ((c : Thread nD τ).loc main_arg0)) (funext fun a => Fin.ext ?_)
    match a with
    | ⟨0, _⟩ => show win0_0.index t (0 : Fin 2) * 1024 + 1 * r.val = t.val * 1024 + r.val; omega
    | ⟨1, _⟩ => show win0_0.index t (1 : Fin 2) * 1024 + 1 * k.val = k.val; omega
  have h1 : ∀ k : Fin 1024, iblk m c 1 t (ix2 k n) = pooledW (m ((c : Thread nD τ).loc main_arg1)) (ix2 n k) := fun k => by
    show V m c main_v9 (((cfg0.win 1).blk t).view.emb (ix2 k n)) = _
    rw [← V_weights_apply m c k n]
    refine congrArg (V m c main_v9) (funext fun a => Fin.ext ?_)
    match a with
    | ⟨0, _⟩ => show win0_1.index t (0 : Fin 2) * 1024 + 1 * k.val = k.val; omega
    | ⟨1, _⟩ => show win0_1.index t (1 : Fin 2) * 1024 + 1 * n.val = n.val; omega
  have h2 : iblk m c 2 t (ix2 (0 : Fin 1) n) = pooledB (m ((c : Thread nD τ).loc main_arg2)) (ix1 n) := by
    show V m c main_v10 (((cfg0.win 2).blk t).view.emb (ix2 (0 : Fin 1) n)) = _
    rw [← V_bias_apply m c (0 : Fin 1) n]
    refine congrArg (V m c main_v10) (funext fun a => Fin.ext ?_)
    match a with
    | ⟨0, _⟩ => show win0_2.index t (0 : Fin 2) * 1 + 1 * 0 = 0; omega
    | ⟨1, _⟩ => show win0_2.index t (1 : Fin 2) * 1024 + 1 * n.val = n.val; omega
  rw [h2]
  exact congrArg (· + pooledB (m ((c : Thread nD τ).loc main_arg2)) (ix1 n)) (Finset.sum_congr rfl fun k _ => by rw [h0 k, h1 k])

/-- An index of the output array is in point t's block iff each coordinate is in the block's range on its axis. -/
theorem mem_blk (t : Fin cfg0.N) (i : S32x1x1024.Idx) :
    i ∈ ((cfg0.win 3).blk t).view.set ↔ ∀ a : Fin 3, win0_3.index t a * S1x1x1024.size a ≤ (i a).val
      ∧ (i a).val < win0_3.index t a * S1x1x1024.size a + S1x1x1024.size a := by
  show i ∈ ((View.whole main_v11).slice (win0_3.rect t)).set ↔ _
  rw [View.set_slice_whole, Rect.mem_set_unit]
  exact Iff.rfl

/-- The 32 blocks tile the output array: entry (t, 0, r) is in point t's block. -/
theorem cover (i : S32x1x1024.Idx) : ∃ t : Fin cfg0.N, (cfg0.win 3).flush t = true ∧ i ∈ ((cfg0.win 3).blk t).view.set := by
  have h0 : (i 0).val < 32 := (i 0).isLt
  have h1 : (i 1).val < 1 := (i 1).isLt
  have h2 : (i 2).val < 1024 := (i 2).isLt
  obtain ⟨-, -, -, -, -, -, e30, e31, e32⟩ := idx_facts (⟨(i 0).val, lt_of_lt_of_eq h0 N_0.symm⟩ : Fin cfg0.N)
  refine ⟨⟨(i 0).val, lt_of_lt_of_eq h0 N_0.symm⟩, flush0_3 _, ?_⟩
  rw [mem_blk]
  intro a
  match a with
  | ⟨0, _⟩ =>
    show win0_3.index _ (0 : Fin 3) * 1 ≤ (i 0).val ∧ (i 0).val < win0_3.index _ (0 : Fin 3) * 1 + 1
    have e30' : win0_3.index (⟨(i 0).val, lt_of_lt_of_eq h0 N_0.symm⟩ : Fin cfg0.N) (0 : Fin 3) = (i 0).val := e30
    rw [e30']; omega
  | ⟨1, _⟩ =>
    show win0_3.index _ (1 : Fin 3) * 1 ≤ (i 1).val ∧ (i 1).val < win0_3.index _ (1 : Fin 3) * 1 + 1
    rw [e31]; omega
  | ⟨2, _⟩ =>
    show win0_3.index _ (2 : Fin 3) * 1024 ≤ (i 2).val ∧ (i 2).val < win0_3.index _ (2 : Fin 3) * 1024 + 1024
    rw [e32]; omega

/-- THE OUTPUT ARRAY after the run: the slab of the arguments' row maxima. -/
theorem final (c : Dev nD) :
    (dats (F := Ideal) m 0 c).arrAt 3 cfg0.N
      = slab (m ((c : Thread nD τ).loc main_arg0)) (pooledW (m ((c : Thread nD τ).loc main_arg1)))
          (pooledB (m ((c : Thread nD τ).loc main_arg2))) :=
  (dats (F := Ideal) m 0 c).arrAt_eq_of_cover 3 _ (fun t _ => flushed_eq m c t) cover

/-- The program's last operation flattens the slab: position p holds row p's maximum. -/
theorem tail (c : Dev nD) :
    Pipeline.afterTail₀ cfgs (dats (F := Ideal) m) 0 (V0 m) [hostOps1] c main_v12
      = rowMax (m ((c : Thread nD τ).loc main_arg0)) (pooledW (m ((c : Thread nD τ).loc main_arg1)))
          (pooledB (m ((c : Thread nD τ).loc main_arg2))) := by
  unfold Pipeline.afterTail₀
  show StableHlo.after hostOps1 _ (Proc.devRef .tc main_v12) = _
  after_results
  funext i
  obtain ⟨p, rfl⟩ : ∃ p : Fin 32768, i = ix1 p := ⟨i 0, eq_ix1 i⟩
  have hp : p.val < 32768 := p.isLt
  have hA : Pipeline.withArrays (cfgs 0).spec c (V0 m c) (fun w => (dats (F := Ideal) m 0 c).arrAt w (cfgs 0).N)
        (Proc.devRef .tc main_v11)
      = slab (m ((c : Thread nD τ).loc main_arg0)) (pooledW (m ((c : Thread nD τ).loc main_arg1)))
          (pooledB (m ((c : Thread nD τ).loc main_arg2))) :=
    (Pipeline.withArrays_arr spec0 launch0.win.arr_inj c _ _ 3).trans (final m c)
  refine (shapeCast_g1a_flat_apply _ shapeCasts_S32x1x1024_S32768 (⟨p.val / 1024, by omega⟩ : Fin 32)
    (⟨p.val % 1024, by omega⟩ : Fin 1024) p (by show p.val = p.val / 1024 * 1024 + p.val % 1024; omega)).trans ?_
  refine (congrFun hA _).trans ?_
  exact congrArg (rowMax _ _ _) (congrArg ix1 (Fin.ext (by show p.val / 1024 * 1024 + p.val % 1024 = p.val; omega)))

/-- THE KERNEL'S RUN: every weakly fair execution ends with the result at the row maxima of the arguments' rows, pooled
    weight and pooled bias, and the arguments unchanged. -/
theorem run : θ_run defs (onTc (τ := τ) (main (F := Ideal))) ⟨m, fun _ => 0, ρ⟩ fun r => ∀ c : Dev nD,
      r.2.mem ((c.tc : Thread nD τ).loc main_v12)
          = rowMax (m ((c.tc : Thread nD τ).loc main_arg0)) (pooledW (m ((c.tc : Thread nD τ).loc main_arg1)))
              (pooledB (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v12 (Pipeline.mem_restRefs_of main_v12 (by decide) (by decide))).trans (tail m c),
      ((h c).1 0).trans (((dats (F := Ideal) m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.RowValue

end
-- ==== Proof.lean ====
/-
  The kernel and its reference compute the same row maxima.

  Both programs pool the weight's rows and the bias's entries four at a time, W and B; both then take, for each of the
  32768 rows r of x, the maximum over the 1024 columns n of  act (∑ k, x[r, k] · W[n, k] + B[n]),  act the scaled
  tanh form of GELU. The kernel does it 1024 rows at a grid point and 256 columns at a time, with a matrix product into
  a zero accumulator, the cube formed before it is scaled, a running maximum from −∞, the result stored as a
  [32, 1, 1024] slab and flattened; the reference does it in one pass, with the cube scaled first. On the extended reals
  the two agree by two laws that ask no finiteness: the product is associative, and a maximum from the bottom does not
  depend on how its terms are grouped (Spec). The precondition is not used.

  The three frames are the generated ones (the reference's from its generated run); the idealization rewrote nothing,
  so the fourth claim is `True`; the fifth puts the kernel's run (KernelValue) beside the reference's run read as the
  same function (RefValue), the pooled arrays being the same terms of the same arguments on both sides.
-/
import proofs.«116591_j58128087384687_2_alg».proof.Defs
import proofs.«116591_j58128087384687_2_alg».proof.Proof.Gen.Kernel
import proofs.«116591_j58128087384687_2_alg».proof.Proof.Gen.Kernel.Skeleton
import proofs.«116591_j58128087384687_2_alg».proof.Proof.Gen.Kernel.Launch
import proofs.«116591_j58128087384687_2_alg».proof.Proof.Gen.Kernel.Points
import proofs.«116591_j58128087384687_2_alg».proof.Proof.Gen.Kernel.Frame
import proofs.«116591_j58128087384687_2_alg».proof.Proof.Gen.KernelIdeal
import proofs.«116591_j58128087384687_2_alg».proof.Proof.Gen.KernelIdeal.Skeleton
import proofs.«116591_j58128087384687_2_alg».proof.Proof.Gen.KernelIdeal.Launch
import proofs.«116591_j58128087384687_2_alg».proof.Proof.Gen.KernelIdeal.Points
import proofs.«116591_j58128087384687_2_alg».proof.Proof.Gen.KernelIdeal.Frame
import proofs.«116591_j58128087384687_2_alg».proof.Proof.Gen.ReferenceIdeal
import proofs.«116591_j58128087384687_2_alg».proof.Proof.Gen.Pre_finite_inputs
import proofs.«116591_j58128087384687_2_alg».proof.Proof.Gen.ReferenceIdeal.Run
import proofs.«116591_j58128087384687_2_alg».proof.Proof.Gen.ReferenceIdeal.Read
import proofs.«116591_j58128087384687_2_alg».proof.Proof.Spec
import proofs.«116591_j58128087384687_2_alg».proof.Proof.RefValue
import proofs.«116591_j58128087384687_2_alg».proof.Proof.KernelValue
import Idealize.ShloMosaic.Adequacy
import Idealize.ShloMosaic.Init

noncomputable section

namespace Cert.Proof

open Idealize.ShloMosaic Idealize.ShloMosaic.TcCoe Idealize.SL.Sem

/-- The pooled weight is one term of the weight argument in both programs. -/
theorem pooledW_eq (x1 : (⟨Cert.ReferenceIdeal.S4096x1024, .f32⟩ : BufTy).Contents (Elt Ideal)) :
    Cert.ReferenceIdeal.Read.val_main_v3 (F := Ideal) x1 = Cert.KernelIdeal.HostSide.pooledW x1 := rfl

/-- The pooled bias is one term of the bias argument in both programs. -/
theorem pooledB_eq (x2 : (⟨Cert.ReferenceIdeal.S4096, .f32⟩ : BufTy).Contents (Elt Ideal)) :
    Cert.ReferenceIdeal.Read.val_main_v7 (F := Ideal) x2 = Cert.KernelIdeal.HostSide.pooledB x2 := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end with the row maxima of the same rows, pooled weight and pooled bias. -/
theorem algebraic : Cert.algebraic_KernelIdeal_ReferenceIdeal := by
  intro m ρ m' ρ' _ hagree
  refine ⟨fun c => Cert.RowMax.rowMax (m ((c.tc : Thread Cert.KernelIdeal.nD Cert.KernelIdeal.τ).loc Cert.KernelIdeal.main_arg0))
      (Cert.KernelIdeal.HostSide.pooledW (m ((c.tc : Thread Cert.KernelIdeal.nD Cert.KernelIdeal.τ).loc Cert.KernelIdeal.main_arg1)))
      (Cert.KernelIdeal.HostSide.pooledB (m ((c.tc : Thread Cert.KernelIdeal.nD Cert.KernelIdeal.τ).loc Cert.KernelIdeal.main_arg2))),
    Cert.KernelIdeal.RowValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.ReferenceIdeal.RefValue.result_eq, (hagree c).1, (hagree c).2.1, (hagree c).2.2,
    pooledW_eq, pooledB_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
